-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2x64 .f32) (main_arg9 : FVec F S2x64 .f32) (main_arg10 : FVec F S2 .f32) (main_v33 : IVec S_ 1) : IVec S_ 1 :=
  let main_v34 : FVec F S2x64 .f32 := Host.absf main_arg8
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2x64 .f32 := Host.absf main_arg9
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg5 : FVec F S64x64 .f32) (main_arg6 : FVec F S64x64 .f32) (main_arg7 : FVec F S64 .f32) (main_arg8 : FVec F S2x64 .f32) (main_arg9 : FVec F S2x64 .f32) (main_arg10 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S2x64 .f32) (main_arg9 : FVec F S2x64 .f32) (main_arg10 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩
abbrev S1x2 : Shape := ⟨2, ![1, 2]⟩
abbrev S100000x2 : Shape := ⟨2, ![100000, 2]⟩
abbrev S5000x2 : Shape := ⟨2, ![5000, 2]⟩
abbrev S64x2 : Shape := ⟨2, ![64, 2]⟩

abbrev nBuf : Space → Nat
  | .hbm => 60
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S2x64, .f32⟩
  | .hbm, ⟨9, _⟩ => ⟨S2x64, .f32⟩
  | .hbm, ⟨10, _⟩ => ⟨S2, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S1x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S1x2, .f32⟩
  | .hbm, ⟨59, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S2x64, .f32⟩
  | .local _ .vmem, ⟨23, _⟩ => ⟨S2x64, .f32⟩
  | .local _ .vmem, ⟨24, _⟩ => ⟨S1x2, .f32⟩
  | .local _ .vmem, ⟨25, _⟩ => ⟨S5000x2, .f32⟩
  | .local _ .vmem, ⟨26, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x64_p1_0_S64x64 : S64x64.Transposes [1, 0] S64x64
  broadcasts_S1x64_S5000x64 : S1x64.Broadcasts S5000x64
  shapeCasts_S2_S1x2 : S2.ShapeCasts S1x2
  inb_S2x64_S2x64_0_0 : ∀ a, (![0, 0] : Fin 2 → Nat) a + S2x64.size a ≤ S2x64.size a
  h_S2x64 : 0 < S2x64.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  transposes_S2x64_p1_0_S64x2 : S2x64.Transposes [1, 0] S64x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2x64.size a ≤ S2x64.size a
  hwx2_2 : ∀ i : grid2.Coords, EltTy.bits .f32 = 32 ∨ (Rect.block (s := S2x64) S2x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2x64.size a ≤ S2x64.size a
  hwx2_3 : ∀ i : grid2.Coords, EltTy.bits .f32 = 32 ∨ (Rect.block (s := S2x64) S2x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x2.size a ≤ S100000x2.size a
  hwx2_5 : ∀ i : grid2.Coords, EltTy.bits .f32 = 32 ∨ (Rect.block (s := S100000x2) S5000x2.size (cc2_transform_5 i) (hinb2_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S2x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S2x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S64x2 : Shape := ⟨2, ![64, 2]⟩
abbrev S100000x2 : Shape := ⟨2, ![100000, 2]⟩
abbrev S1x2 : Shape := ⟨2, ![1, 2]⟩

abbrev nBuf : Space → Nat
  | .hbm => 84
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S2x64, .f32⟩
  | .hbm, ⟨9, _⟩ => ⟨S2x64, .f32⟩
  | .hbm, ⟨10, _⟩ => ⟨S2, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S64x64, .f32⟩
  | .hbm, ⟨29, _⟩ => ⟨S100000x64, .f32⟩
  | .hbm, ⟨30, _⟩ => ⟨S64x64, .f32⟩
  | .hbm, ⟨31, _⟩ => ⟨S100000x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S_, .f32⟩
  | .hbm, ⟨37, _⟩ => ⟨S100000x64, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S64x64, .f32⟩
  | .hbm, ⟨53, _⟩ => ⟨S100000x64, .f32⟩
  | .hbm, ⟨54, _⟩ => ⟨S64x64, .f32⟩
  | .hbm, ⟨55, _⟩ => ⟨S100000x64, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S64x2, .f32⟩
  | .hbm, ⟨77, _⟩ => ⟨S100000x2, .f32⟩
  | .hbm, ⟨78, _⟩ => ⟨S64x2, .f32⟩
  | .hbm, ⟨79, _⟩ => ⟨S100000x2, .f32⟩
  | .hbm, ⟨80, _⟩ => ⟨S100000x2, .f32⟩
  | .hbm, ⟨81, _⟩ => ⟨S1x2, .f32⟩
  | .hbm, ⟨82, _⟩ => ⟨S100000x2, .f32⟩
  | .hbm, ⟨83, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_cst : Ref sig .tc := ⟨.hbm, 36, rfl⟩
abbrev main_call0_v0 : Ref sig .tc := ⟨.hbm, 37, rfl⟩
abbrev main_v22 : Ref sig .tc := ⟨.hbm, 38, rfl⟩
abbrev main_c_1 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_cst : Ref sig .tc := ⟨.hbm, 60, rfl⟩
abbrev main_call1_v0 : Ref sig .tc := ⟨.hbm, 61, rfl⟩
abbrev main_v41 : Ref sig .tc := ⟨.hbm, 62, rfl⟩
abbrev main_c_4 : Ref sig .tc := ⟨.hbm, 63, rfl⟩
abbrev main_v42 : Ref sig .tc := ⟨.hbm, 64, rfl⟩
abbrev main_v43 : Ref sig .tc := ⟨.hbm, 65, rfl⟩
abbrev main_c_5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.LibPlainMatmul.lean ====
/-
  A plain matrix product read at one entry, over the extended reals.

  The product of an M×K matrix by a K×N matrix with no batch axis contracts the left operand's columns against the
  right operand's rows.  Added into the all-zero matrix, its entry (p, q) is the plain sum
      Σ_{k < K}  lhs (p, k) · rhs (k, q),
  the sum over the one contraction axis re-indexed by that axis's coordinate.  Nothing of real arithmetic is used
  beyond 0 + x = x, so the statement holds at the infinities as well.

  A one-row matrix laid along every row of an M×N matrix reads, at (p, q), its entry (0, q).

  Together: entry (p, q) of  f (lhs · rhs + row)  applied entrywise, for any scalar function f.
-/
import Idealize.ShloMosaic.Lib.ValueIdx
import Idealize.ShloMosaic.Lib.Pipeline.Value
import Idealize.ShloMosaic.PureOps.Ideal.Laws

noncomputable section

open scoped BigOperators

namespace Idealize.ShloMosaic.PlainMatmul

open Idealize.ShloMosaic Idealize.ShloMosaic.ValueIdx

variable {M K N : Nat}

/-- The dimension numbers of a plain product: the left operand contracts its columns (axis 1), the right operand its
    rows (axis 0); the remaining axes are the result's rows and columns; there is no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable (D : DotDims ⟨2, ![M, K]⟩ ⟨2, ![K, N]⟩ ⟨2, ![M, N]⟩)

/-- One axis is contracted … -/
theorem contr_rank (hD : IsPlain D) : D.contr.rank = 1 := by
  rw [D.rank_contr, hD.lc]; rfl

/-- … and its extent is the left operand's number of columns. -/
theorem contr_size (hD : IsPlain D) : D.contr.size ⟨0, by rw [contr_rank D hD]; exact Nat.one_pos⟩ = K := by
  have h1 : 0 < D.lhsContracting.length := by rw [hD.lc]; exact Nat.one_pos
  have h2 : D.lhsContracting[0]'h1 = (1 : Fin 2) := List.getElem_of_eq hD.lc h1
  rw [D.size_contr 0 h1, h2]
  rfl

/-- The left operand is read in the result's row … -/
theorem lhsIdx_row (hD : IsPlain D) (j : (⟨2, ![M, N]⟩ : Shape).Idx) (k : D.contr.Idx) : (D.lhsIdx j k 0).val = (j 0).val := by
  obtain ⟨lc, rc, ln, rn, lb, rb, wf⟩ := D
  obtain ⟨h1, h2, h3, h4, h5, h6⟩ := hD
  dsimp only at h1 h2 h3 h4 h5 h6
  subst h1 h2 h3 h4 h5 h6
  rfl

/-- … and the right operand in the result's column. -/
theorem rhsIdx_col (hD : IsPlain D) (j : (⟨2, ![M, N]⟩ : Shape).Idx) (k : D.contr.Idx) : (D.rhsIdx j k 1).val = (j 1).val := by
  obtain ⟨lc, rc, ln, rn, lb, rb, wf⟩ := D
  obtain ⟨h1, h2, h3, h4, h5, h6⟩ := hD
  dsimp only at h1 h2 h3 h4 h5 h6
  subst h1 h2 h3 h4 h5 h6
  rfl

/-- The contraction position, as a number below the common extent. -/
abbrev contrFin (hD : IsPlain D) : D.contr.Idx ≃ Fin K := contrEquiv1 D K (contr_rank D hD) (contr_size D hD)

/-- At contraction position `k` the left operand is read at (row, k) … -/
theorem lhsIdx_eq (hD : IsPlain D) (p : Fin M) (q : Fin N) (k : Fin K) :
    D.lhsIdx (ix2 p q) ((contrFin D hD).symm k) = ix2 p k := by
  funext a
  apply Fin.ext
  match a with
  | ⟨0, _⟩ => exact lhsIdx_row D hD _ _
  | ⟨1, _⟩ => exact (D.lhsIdx_val_of_single hD.lc _ _).trans (contrEquiv1_symm_val D K _ _ k)

/-- … and the right operand at (k, column). -/
theorem rhsIdx_eq (hD : IsPlain D) (p : Fin M) (q : Fin N) (k : Fin K) :
    D.rhsIdx (ix2 p q) ((contrFin D hD).symm k) = ix2 k q := by
  funext a
  apply Fin.ext
  match a with
  | ⟨0, _⟩ => exact (D.rhsIdx_val_of_single hD.rc _ _).trans (contrEquiv1_symm_val D K _ _ k)
  | ⟨1, _⟩ => exact rhsIdx_col D hD _ _

/-- ENTRY (p, q) OF A PLAIN PRODUCT added into the zero matrix: Σ_k lhs (p, k) · rhs (k, q). -/
theorem matmul_zero_apply (hD : IsPlain D) {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrFin D hD).symm]
  refine Finset.sum_congr rfl fun k _ => ?_
  rw [lhsIdx_eq D hD p q k, rhsIdx_eq D hD p q k]

/-- A one-row matrix laid along every row reads, at (p, q), its entry (0, q). -/
theorem broadcastRow_apply {α : Type} (b : (⟨2, ![1, N]⟩ : Shape).Idx → α)
    (h : (⟨2, ![1, N]⟩ : Shape).Broadcasts ⟨2, ![M, N]⟩) (p : Fin M) (q : Fin N) :
    broadcastTo ⟨2, ![M, N]⟩ b h (ix2 p q) = b (ix2 (0 : Fin 1) q) := by
  refine broadcastTo_apply b h (ix2 p q) (ix2 (0 : Fin 1) q) fun a => ?_
  match a with
  | ⟨0, _⟩ => exact (if_pos rfl).symm
  | ⟨1, _⟩ =>
    by_cases hN : N = 1
    · subst hN
      show (q : ℕ) = if (1 : ℕ) = 1 then 0 else (q : ℕ)
      rw [if_pos rfl]; exact Nat.lt_one_iff.mp q.isLt
    · exact (if_neg hN).symm

/-- ENTRY (p, q) of a scalar function applied entrywise to (product + broadcast row). -/
theorem entry_apply (hD : IsPlain D) {φ₁ φ₂ : FTy} (prec : Option ContractPrecision) (f : EReal → EReal)
    (lhs : FVec Ideal ⟨2, ![M, K]⟩ φ₁) (rhs : FVec Ideal ⟨2, ![K, N]⟩ φ₂)
    (b : FVec Ideal ⟨2, ![1, N]⟩ .f32) (h : (⟨2, ![1, N]⟩ : Shape).Broadcasts ⟨2, ![M, N]⟩) (p : Fin M) (q : Fin N) :
    f (FloatOps.matmul D prec lhs rhs (constant (F := Ideal) ⟨2, ![M, N]⟩ .f32 0x00000000#32) (ix2 p q)
        + broadcastTo ⟨2, ![M, N]⟩ b h (ix2 p q))
      = f ((∑ k : Fin K, lhs (ix2 p k) * rhs (ix2 k q)) + b (ix2 (0 : Fin 1) q)) := by
  rw [matmul_zero_apply D hD, broadcastRow_apply]

end Idealize.ShloMosaic.PlainMatmul

end
-- ==== Proof.Layer.lean ====
/-
  One graph-convolution layer read at one entry, over the extended reals.

  A layer sends node features x (one row per node), the aggregated neighbour features agg (same shape), two weight
  matrices W_rel, W_root (one row per OUTPUT feature) and a bias b to
      out (p, q) = f ( Σ_k agg (p, k) · W_rel (q, k)  +  Σ_k x (p, k) · W_root (q, k)  +  b q ),
  f the activation (the maximum with zero, or the identity).  Both programs compute exactly this, entry by entry:
  the kernel as two products added into zero matrices over the transposed weights plus the bias row laid along every
  row; the reference as two host contractions over the transposed weights plus the bias vector laid along every row.
  Only 0 + x = x and the definitions are used, so nothing here needs the entries to be finite.
-/
import Idealize.ShloMosaic.Lib.ValueIdx
import Idealize.ShloMosaic.Lib.ValueLayout
import Idealize.ShloMosaic.Lib.Pipeline.Value
import Idealize.ShloMosaic.PureOps.Ideal.Laws
import proofs.«131033_j14894946583442_1_alg».proof.Proof.LibPlainMatmul

noncomputable section

open scoped BigOperators

namespace Cert.GraphConv

open Idealize.ShloMosaic Idealize.ShloMosaic.ValueIdx Idealize.ShloMosaic.PlainMatmul

variable {M K N : Nat}

/-- Entry (p, q) of agg · W_relᵀ + x · W_rootᵀ + b. -/
def lin (agg x : (⟨2, ![M, K]⟩ : Shape).Idx → EReal) (wr wo : (⟨2, ![N, K]⟩ : Shape).Idx → EReal) (b : Fin N → EReal)
    (p : Fin M) (q : Fin N) : EReal :=
  (∑ k : Fin K, agg (ix2 p k) * wr (ix2 q k)) + (∑ k : Fin K, x (ix2 p k) * wo (ix2 q k)) + b q

/-- The whole layer: the activation `f` of `lin` at every entry. -/
def layer (f : EReal → EReal) (agg x : (⟨2, ![M, K]⟩ : Shape).Idx → EReal) (wr wo : (⟨2, ![N, K]⟩ : Shape).Idx → EReal)
    (b : Fin N → EReal) : (⟨2, ![M, N]⟩ : Shape).Idx → EReal :=
  fun i => f (lin agg x wr wo b (i 0) (i 1))

theorem layer_ix2 (f : EReal → EReal) (agg x : (⟨2, ![M, K]⟩ : Shape).Idx → EReal) (wr wo : (⟨2, ![N, K]⟩ : Shape).Idx → EReal)
    (b : Fin N → EReal) (p : Fin M) (q : Fin N) : layer f agg x wr wo b (ix2 p q) = f (lin agg x wr wo b p q) := rfl

/-- `lin` reads only row p of the two feature matrices, row q of the two weight matrices and entry q of the bias. -/
theorem lin_congr {M' : Nat} {agg x : (⟨2, ![M, K]⟩ : Shape).Idx → EReal} {agg' x' : (⟨2, ![M', K]⟩ : Shape).Idx → EReal}
    {wr wo wr' wo' : (⟨2, ![N, K]⟩ : Shape).Idx → EReal} {b b' : Fin N → EReal} {p : Fin M} {p' : Fin M'} {q : Fin N}
    (ha : ∀ k, agg (ix2 p k) = agg' (ix2 p' k)) (hx : ∀ k, x (ix2 p k) = x' (ix2 p' k))
    (hr : ∀ k, wr (ix2 q k) = wr' (ix2 q k)) (ho : ∀ k, wo (ix2 q k) = wo' (ix2 q k)) (hb : b q = b' q) :
    lin agg x wr wo b p q = lin agg' x' wr' wo' b' p' q := by
  unfold lin
  rw [hb]
  exact congrArg (· + b' q) (congrArg₂ (· + ·) (Finset.sum_congr rfl fun k _ => by rw [ha k, hr k])
    (Finset.sum_congr rfl fun k _ => by rw [hx k, ho k]))

/-- The activation of the first two layers: the maximum with the zero word's value. -/
def relu (v : EReal) : EReal := max v (Ideal.ofBits .f32 0x00000000#32)

variable (D : DotDims ⟨2, ![M, K]⟩ ⟨2, ![K, N]⟩ ⟨2, ![M, N]⟩)

/-- THE KERNEL'S ARITHMETIC at entry (p, q): two products into zero matrices over the transposed weights, added, plus
    the bias row laid along every row. -/
theorem matmul_entry (hD : IsPlain D) (prec : Option ContractPrecision)
    (agg x : FVec Ideal ⟨2, ![M, K]⟩ .f32) (wr wo : FVec Ideal ⟨2, ![N, K]⟩ .f32) (b : FVec Ideal ⟨2, ![1, N]⟩ .f32)
    (hT : (⟨2, ![N, K]⟩ : Shape).Transposes [1, 0] ⟨2, ![K, N]⟩) (hB : (⟨2, ![1, N]⟩ : Shape).Broadcasts ⟨2, ![M, N]⟩)
    (p : Fin M) (q : Fin N) :
    addf (addf (FloatOps.matmul D prec agg (transpose ⟨2, ![K, N]⟩ [1, 0] wr hT) (constant (F := Ideal) ⟨2, ![M, N]⟩ .f32 0x00000000#32))
          (FloatOps.matmul D prec x (transpose ⟨2, ![K, N]⟩ [1, 0] wo hT) (constant (F := Ideal) ⟨2, ![M, N]⟩ .f32 0x00000000#32)))
        (broadcastTo ⟨2, ![M, N]⟩ b hB) (ix2 p q)
      = lin agg x wr wo (fun q => b (ix2 (0 : Fin 1) q)) p q := by
  rw [addf_apply, addf_apply, matmul_zero_apply D hD, matmul_zero_apply D hD, broadcastRow_apply]
  unfold lin
  have e1 : ∀ k : Fin K, transpose ⟨2, ![K, N]⟩ [1, 0] wr hT (ix2 k q) = wr (ix2 q k) := fun k => transpose_ix2_apply wr hT k q
  have e2 : ∀ k : Fin K, transpose ⟨2, ![K, N]⟩ [1, 0] wo hT (ix2 k q) = wo (ix2 q k) := fun k => transpose_ix2_apply wo hT k q
  simp only [e1, e2]

/-- A host contraction with the plain dimension numbers, at entry (p, q): Σ_k lhs (p, k) · rhs (k, q). -/
theorem dotGeneral_entry (hD : IsPlain D) {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral D prec lhs rhs (ix2 p q) = ∑ k : Fin K, lhs (ix2 p k) * rhs (ix2 k q) := by
  simp only [Host.dotGeneral]
  rw [Ideal.dotGeneral_apply, ← Equiv.sum_comp (contrFin D hD).symm]
  refine Finset.sum_congr rfl fun k _ => ?_
  rw [lhsIdx_eq D hD p q k, rhsIdx_eq D hD p q k]

/-- A vector laid out as a one-row matrix and that row laid along every row reads, at (p, q), the vector's entry q. -/
theorem broadcastVec_apply {α : Type} (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (p : Fin M) (q : Fin N) :
    broadcastInDim ⟨2, ![M, N]⟩ ![0, 1] h2 (broadcastInDim ⟨2, ![1, N]⟩ ![1] h1 b) (ix2 p q) = b (ix1 q) := by
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply _ h2 _ (ix2 p q) (ix2 (0 : Fin 1) q) fun a => ?_
    match a with
    | ⟨0, _⟩ => exact (if_pos rfl).symm
    | ⟨1, _⟩ =>
      by_cases hN : N = 1
      · subst hN
        show (q : ℕ) = if (1 : ℕ) = 1 then 0 else (q : ℕ)
        rw [if_pos rfl]; exact Nat.lt_one_iff.mp q.isLt
      · exact (if_neg hN).symm
  rw [e2]
  refine broadcastInDim_apply _ h1 _ (ix2 (0 : Fin 1) q) (ix1 q) fun a => ?_
  match a with
  | ⟨0, _⟩ =>
    by_cases hN : N = 1
    · subst hN
      show (q : ℕ) = if (1 : ℕ) = 1 then 0 else (q : ℕ)
      rw [if_pos rfl]; exact Nat.lt_one_iff.mp q.isLt
    · exact (if_neg hN).symm

/-- THE REFERENCE'S ARITHMETIC at entry (p, q): two host contractions over the transposed weights, added, plus the bias
    vector laid along every row. -/
theorem dotGeneral_layer_entry (hD : IsPlain D) (prec : Option ContractPrecision)
    (agg x : FVec Ideal ⟨2, ![M, K]⟩ .f32) (wr wo : FVec Ideal ⟨2, ![N, K]⟩ .f32) (b : FVec Ideal ⟨1, ![N]⟩ .f32)
    (hT : (⟨2, ![N, K]⟩ : Shape).Transposes [1, 0] ⟨2, ![K, N]⟩)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (p : Fin M) (q : Fin N) :
    addf (addf (Host.dotGeneral D prec agg (transpose ⟨2, ![K, N]⟩ [1, 0] wr hT))
          (Host.dotGeneral D prec x (transpose ⟨2, ![K, N]⟩ [1, 0] wo hT)))
        (broadcastInDim ⟨2, ![M, N]⟩ ![0, 1] h2 (broadcastInDim ⟨2, ![1, N]⟩ ![1] h1 b)) (ix2 p q)
      = lin agg x wr wo (fun q => b (ix1 q)) p q := by
  rw [addf_apply, addf_apply, dotGeneral_entry D hD, dotGeneral_entry D hD, broadcastVec_apply]
  unfold lin
  have e1 : ∀ k : Fin K, transpose ⟨2, ![K, N]⟩ [1, 0] wr hT (ix2 k q) = wr (ix2 q k) := fun k => transpose_ix2_apply wr hT k q
  have e2 : ∀ k : Fin K, transpose ⟨2, ![K, N]⟩ [1, 0] wo hT (ix2 k q) = wo (ix2 q k) := fun k => transpose_ix2_apply wo hT k q
  simp only [e1, e2]

/-- A vector re-laid as a one-row matrix reads, at (0, q), the vector's entry q. -/
theorem rowOfVec_apply {α : Type} (b : (⟨1, ![N]⟩ : Shape).Idx → α) (h : (⟨1, ![N]⟩ : Shape).ShapeCasts ⟨2, ![1, N]⟩) (q : Fin N) :
    shapeCast ⟨2, ![1, N]⟩ b h (ix2 (0 : Fin 1) q) = b (ix1 q) := by
  refine (shapeCast_addUnit_apply (![N]) b h (ix2 (0 : Fin 1) q)).trans (congrArg b (funext fun a => ?_))
  match a with
  | ⟨0, _⟩ => rfl

end Cert.GraphConv

end
-- ==== Proof.RefValue.lean ====
/-
  The reference program's result, read as three graph-convolution layers.

  The reference aggregates neighbour features on the host (a gather of source rows scattered with addition into
  destination rows), then forms  agg · W_relᵀ + x · W_rootᵀ + b  by two host contractions and two broadcasts, and takes
  the maximum with zero after the first two layers.  Its result is therefore, entry by entry, the third layer of the
  second of the first, each over its own aggregation: the same function the kernel's three launches compute.
-/
import proofs.«131033_j14894946583442_1_alg».proof.Proof.Gen.ReferenceIdeal.Run
import proofs.«131033_j14894946583442_1_alg».proof.Proof.Layer

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.SL.Sem
open Cert.GraphConv Idealize.ShloMosaic.PlainMatmul

/-- The source node of every edge: row 0 of the edge list. -/
def srcOf (e : IVec S2x1600000 32) : IVec S1600000 32 :=
  shapeCast _ (extractStridedSlice S1x1600000 ![0, 0] e slices_S2x1600000_S1x1600000_0_0) shapeCasts_S1x1600000_S1600000

/-- The destination node of every edge: row 1 of the edge list. -/
def dstOf (e : IVec S2x1600000 32) : IVec S1600000 32 :=
  shapeCast _ (extractStridedSlice S1x1600000 ![1, 0] e slices_S2x1600000_S1x1600000_1_0) shapeCasts_S1x1600000_S1600000

/-- The neighbour aggregation: the source rows (a negative source counted from the end) gathered and added into the
    destination rows of a zero matrix.  Both programs compute it by the same host operations, and nothing about it is used beyond that. -/
def agg (feat : FVec Ideal S100000x64 .f32) (s d : IVec S1600000 32) :
    FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 feat
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- One hidden layer as the reference's host operations. -/
def hidden (a x : FVec Ideal S100000x64 .f32) (wr wo : FVec Ideal S64x64 .f32)
    (b : FVec Ideal S64 .f32) : FVec Ideal S100000x64 .f32 :=
  maximumf (addf (addf
      (Host.dotGeneral dot_S100000x64_S64x64_S100000x64_1_0_0_1_n_n none a (transpose S64x64 [1, 0] wr transposes_S64x64_S64x64_1_0))
      (Host.dotGeneral dot_S100000x64_S64x64_S100000x64_1_0_0_1_n_n none x (transpose S64x64 [1, 0] wo transposes_S64x64_S64x64_1_0)))
      (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

/-- The output layer as the reference's host operations. -/
def output (a x : FVec Ideal S100000x64 .f32) (wr wo : FVec Ideal S2x64 .f32)
    (b : FVec Ideal S2 .f32) : FVec Ideal S100000x2 .f32 :=
  addf (addf
      (Host.dotGeneral dot_S100000x64_S64x2_S100000x2_1_0_0_1_n_n none a (transpose S64x2 [1, 0] wr transposes_S2x64_S64x2_1_0))
      (Host.dotGeneral dot_S100000x64_S64x2_S100000x2_1_0_0_1_n_n none x (transpose S64x2 [1, 0] wo transposes_S2x64_S64x2_1_0)))
    (broadcastInDim S100000x2 ![0, 1] bcast_S1x2_S100000x2_0_1 (broadcastInDim S1x2 ![1] bcast_S2_S1x2_1 b))

theorem plain64 : IsPlain (M := 100000) (K := 64) (N := 64) dot_S100000x64_S64x64_S100000x64_1_0_0_1_n_n := ⟨rfl, rfl, rfl, rfl, rfl, rfl⟩
theorem plain2 : IsPlain (M := 100000) (K := 64) (N := 2) dot_S100000x64_S64x2_S100000x2_1_0_0_1_n_n := ⟨rfl, rfl, rfl, rfl, rfl, rfl⟩

/-- The zero word laid over a whole matrix reads the zero word's value everywhere. -/
theorem zeros_apply (i : S100000x64.Idx) :
    broadcastInDim S100000x64 ![] bcast_S_S100000x64 (constant (F := Ideal) S_ .f32 0x00000000#32) i = Ideal.ofBits .f32 0x00000000#32 :=
  broadcastInDim_apply _ bcast_S_S100000x64 _ i (fun a => a.elim0) (fun a => a.elim0)

/-- A hidden layer of the reference IS the layer function with the maximum-with-zero activation. -/
theorem hidden_eq (a x : FVec Ideal S100000x64 .f32) (wr wo : FVec Ideal S64x64 .f32)
    (b : FVec Ideal S64 .f32) :
    hidden a x wr wo b = layer (M := 100000) (K := 64) (N := 64) relu a x wr wo (fun q => b (ix1 q)) := by
  funext i
  obtain ⟨p, q, rfl⟩ : ∃ (p : Fin 100000) (q : Fin 64), i = ix2 p q := ⟨i 0, i 1, eq_ix2 i⟩
  unfold hidden
  rw [maximumf_apply, zeros_apply, layer_ix2]
  exact congrArg (max · (Ideal.ofBits .f32 0x00000000#32))
    (dotGeneral_layer_entry dot_S100000x64_S64x64_S100000x64_1_0_0_1_n_n plain64 none a x wr wo b _ _ _ p q)

/-- The output layer of the reference IS the layer function with no activation. -/
theorem output_eq (a x : FVec Ideal S100000x64 .f32) (wr wo : FVec Ideal S2x64 .f32)
    (b : FVec Ideal S2 .f32) :
    output a x wr wo b = layer (M := 100000) (K := 64) (N := 2) id a x wr wo (fun q => b (ix1 q)) := by
  funext i
  obtain ⟨p, q, rfl⟩ : ∃ (p : Fin 100000) (q : Fin 2), i = ix2 p q := ⟨i 0, i 1, eq_ix2 i⟩
  unfold output
  rw [layer_ix2]
  exact dotGeneral_layer_entry dot_S100000x64_S64x2_S100000x2_1_0_0_1_n_n plain2 none a x wr wo b _ _ _ p q

/-- The three layers over the launch contents of the arguments. -/
def h1 (m : (ℓ : Loc nD τ sig) → Buf (Elt Ideal) ℓ) (c : Dev nD) : FVec Ideal S100000x64 .f32 :=
  hidden (agg (m ((c.tc : Thread nD τ).loc main_arg0)) (srcOf (m ((c.tc : Thread nD τ).loc main_arg1))) (dstOf (m ((c.tc : Thread nD τ).loc main_arg1))))
    (m ((c.tc : Thread nD τ).loc main_arg0)) (m ((c.tc : Thread nD τ).loc main_arg2)) (m ((c.tc : Thread nD τ).loc main_arg3)) (m ((c.tc : Thread nD τ).loc main_arg4))
def h2 (m : (ℓ : Loc nD τ sig) → Buf (Elt Ideal) ℓ) (c : Dev nD) : FVec Ideal S100000x64 .f32 :=
  hidden (agg (h1 m c) (srcOf (m ((c.tc : Thread nD τ).loc main_arg1))) (dstOf (m ((c.tc : Thread nD τ).loc main_arg1))))
    (h1 m c) (m ((c.tc : Thread nD τ).loc main_arg5)) (m ((c.tc : Thread nD τ).loc main_arg6)) (m ((c.tc : Thread nD τ).loc main_arg7))
def h3 (m : (ℓ : Loc nD τ sig) → Buf (Elt Ideal) ℓ) (c : Dev nD) : FVec Ideal S100000x2 .f32 :=
  output (agg (h2 m c) (srcOf (m ((c.tc : Thread nD τ).loc main_arg1))) (dstOf (m ((c.tc : Thread nD τ).loc main_arg1))))
    (h2 m c) (m ((c.tc : Thread nD τ).loc main_arg8)) (m ((c.tc : Thread nD τ).loc main_arg9)) (m ((c.tc : Thread nD τ).loc main_arg10))

set_option maxHeartbeats 4000000 in
/-- THE REFERENCE'S RESULT is the third layer of the second of the first. -/
theorem res_eq (m : (ℓ : Loc nD τ sig) → Buf (Elt Ideal) ℓ) (c : Dev nD) : res_main_v59 (F := Ideal) m c = h3 m c := by
  unfold res_main_v59 h3 h2 h1 output hidden agg srcOf dstOf
  rfl

end Cert.ReferenceIdeal.RefValue

end
-- ==== Proof.KernelRun.lean ====
/-
  The idealized kernel program's run with every buffer it leaves, read.

  The program is three launches among stretches of host operations.  Its run from any memory terminates without a fault,
  and every buffer that outlives the launches ends at the contents the last segment boundary gives it: the fold of the
  host stretches and of the three launches' write-backs over the launch memory.  In particular the result buffer ends at
  the third launch's result array, and each argument at its launch contents.
-/
import proofs.«131033_j14894946583442_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer that outlives the launches at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The run with the result buffer at the third launch's result array and every argument as launched. -/
theorem run_result : θ_run defs (onTc (τ := τ) (main (F := F))) ⟨m, fun _ => 0, ρ⟩ (fun r => ∀ c : Dev nD,
      r.2.mem ((c.tc : Thread nD τ).loc main_v39) = (dat2 (V5 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨(h c _ (mem_uc main_v39 (by decide))).trans (W6_arr m ρ c 5),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)
    (run_all m ρ)

end Cert.KernelIdeal.Whole

end
-- ==== Proof.Region0.lean ====
/-
  The first layer's launch, read: the result array after it is the layer of the arrays it was entered with.

  The launch tiles the node axis into 20 blocks of 5000 rows.  At grid point t the body reads rows 5000·t … 5000·t + 4999 of
  the aggregated features and of the node features, the two weight matrices and the bias row whole, and writes rows
  5000·t … 5000·t + 4999 of the result.  Entry (p, q) of what it writes depends only on row p of the two feature blocks, so
  the written block is the block of ONE whole-array function, the layer of the arrays as the launch finds them; and since
  the 20 blocks tile the rows, the result array ends holding that function everywhere.
-/
import proofs.«131033_j14894946583442_1_alg».proof.Proof.Gen.KernelIdeal.Frame
import proofs.«131033_j14894946583442_1_alg».proof.Proof.Layer

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.GraphConv Idealize.ShloMosaic.PlainMatmul

/-- The kernel's product is a plain one: rows by columns, no batch axis. -/
theorem plain : IsPlain (M := 5000) (K := 64) (N := 64) dot_S5000x64_S64x64_S5000x64_1_0_0_1_n_n := ⟨rfl, rfl, rfl, rfl, rfl, rfl⟩

theorem hz : (![0, 0] : Fin 2 → Nat) = fun _ => 0 := funext fun a => by fin_cases a <;> rfl

/-- The body's stored value at entry (p, q) of the block: the layer's entry over the loaded blocks. -/
theorem pay_entry (x0 x1 : Vec Ideal S5000x64 .f32) (x2 x3 : Vec Ideal S64x64 .f32) (x4 : Vec Ideal S1x64 .f32)
    (p : Fin 5000) (q : Fin 64) :
    k0_pay1 x0 x1 x2 x3 x4 (ix2 p q) = relu (lin x0 x1 x2 x3 (fun q => x4 (ix2 (0 : Fin 1) q)) p q) := by
  unfold k0_pay1
  dsimp only
  simp only [shapeCast_self]
  rw [maximumf_apply, broadcast_apply]
  exact congrArg (max · (Ideal.ofBits .f32 0x00000000#32)) (matmul_entry dot_S5000x64_S64x64_S5000x64_1_0_0_1_n_n plain none x0 x1 x2 x3 x4 _ _ p q)

/-- Where each window's block sits at grid point t: the two feature windows and the result window at block row t, the
    weights and the bias at their one block. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Feature window 0's block at point t, entry (p, k), is its array's entry (5000·t + p, k). -/
theorem feat0_apply (c : Dev nD) (t : Fin cfg0.N) (p : Fin 5000) (k : Fin 64) (r : Fin 100000) (hr : r.val = 5000 * t.val + p.val) :
    (iblk0 V c 0 t : Vec Ideal S5000x64 .f32) (ix2 p k)
      = (V c (Pipeline.arrRef spec0 0) : S100000x64.Idx → Ideal .f32) (ix2 r k) := by
  obtain ⟨ea, eb, -⟩ := idx t
  unfold iblk0
  rw [View.read_apply]
  refine congrArg (V c (Pipeline.arrRef spec0 0) : S100000x64.Idx → Ideal .f32) (funext fun a => Fin.ext ?_)
  match a with
  | ⟨0, _⟩ => show win0_0.index t (0 : Fin 2) * 5000 + 1 * p.val = r.val; rw [ea, hr]; omega
  | ⟨1, _⟩ => show win0_0.index t (1 : Fin 2) * 64 + 1 * k.val = k.val; rw [eb]; omega

/-- Feature window 1's block at point t, entry (p, k), is its array's entry (5000·t + p, k). -/
theorem feat1_apply (c : Dev nD) (t : Fin cfg0.N) (p : Fin 5000) (k : Fin 64) (r : Fin 100000) (hr : r.val = 5000 * t.val + p.val) :
    (iblk0 V c 1 t : Vec Ideal S5000x64 .f32) (ix2 p k)
      = (V c (Pipeline.arrRef spec0 1) : S100000x64.Idx → Ideal .f32) (ix2 r k) := by
  obtain ⟨-, -, ea, eb, -⟩ := idx t
  unfold iblk0
  rw [View.read_apply]
  refine congrArg (V c (Pipeline.arrRef spec0 1) : S100000x64.Idx → Ideal .f32) (funext fun a => Fin.ext ?_)
  match a with
  | ⟨0, _⟩ => show win0_1.index t (0 : Fin 2) * 5000 + 1 * p.val = r.val; rw [ea, hr]; omega
  | ⟨1, _⟩ => show win0_1.index t (1 : Fin 2) * 64 + 1 * k.val = k.val; rw [eb]; omega

/-- Weight window 2's one block is the whole matrix. -/
theorem weight2_apply (c : Dev nD) (t : Fin cfg0.N) (q : Fin 64) (k : Fin 64) :
    (iblk0 V c 2 t : Vec Ideal S64x64 .f32) (ix2 q k)
      = (V c (Pipeline.arrRef spec0 2) : S64x64.Idx → Ideal .f32) (ix2 q k) := by
  obtain ⟨-, -, -, -, ea, eb, -⟩ := idx t
  unfold iblk0
  rw [View.read_apply]
  refine congrArg (V c (Pipeline.arrRef spec0 2) : S64x64.Idx → Ideal .f32) (funext fun a => Fin.ext ?_)
  match a with
  | ⟨0, _⟩ => show win0_2.index t (0 : Fin 2) * 64 + 1 * q.val = q.val; rw [ea]; omega
  | ⟨1, _⟩ => show win0_2.index t (1 : Fin 2) * 64 + 1 * k.val = k.val; rw [eb]; omega

/-- Weight window 3's one block is the whole matrix. -/
theorem weight3_apply (c : Dev nD) (t : Fin cfg0.N) (q : Fin 64) (k : Fin 64) :
    (iblk0 V c 3 t : Vec Ideal S64x64 .f32) (ix2 q k)
      = (V c (Pipeline.arrRef spec0 3) : S64x64.Idx → Ideal .f32) (ix2 q k) := by
  obtain ⟨-, -, -, -, -, -, ea, eb, -⟩ := idx t
  unfold iblk0
  rw [View.read_apply]
  refine congrArg (V c (Pipeline.arrRef spec0 3) : S64x64.Idx → Ideal .f32) (funext fun a => Fin.ext ?_)
  match a with
  | ⟨0, _⟩ => show win0_3.index t (0 : Fin 2) * 64 + 1 * q.val = q.val; rw [ea]; omega
  | ⟨1, _⟩ => show win0_3.index t (1 : Fin 2) * 64 + 1 * k.val = k.val; rw [eb]; omega

/-- The bias window's one block is the whole row. -/
theorem bias_apply (c : Dev nD) (t : Fin cfg0.N) (q : Fin 64) :
    (iblk0 V c 4 t : Vec Ideal S1x64 .f32) (ix2 (0 : Fin 1) q)
      = (V c (Pipeline.arrRef spec0 4) : S1x64.Idx → Ideal .f32) (ix2 (0 : Fin 1) q) := by
  obtain ⟨-, -, -, -, -, -, -, -, e40, e41, -⟩ := idx t
  unfold iblk0
  rw [View.read_apply]
  refine congrArg (V c (Pipeline.arrRef spec0 4) : S1x64.Idx → Ideal .f32) (funext fun a => Fin.ext ?_)
  match a with
  | ⟨0, _⟩ => show win0_4.index t (0 : Fin 2) * 1 + 1 * 0 = 0; rw [e40]
  | ⟨1, _⟩ => show win0_4.index t (1 : Fin 2) * 64 + 1 * q.val = q.val; rw [e41]; omega

/-- The layer of the arrays as the launch finds them: what the result array ends holding. -/
def result (c : Dev nD) : S100000x64.Idx → Ideal .f32 :=
  layer (M := 100000) (K := 64) (N := 64) relu
    (V c (Pipeline.arrRef spec0 0)) (V c (Pipeline.arrRef spec0 1)) (V c (Pipeline.arrRef spec0 2)) (V c (Pipeline.arrRef spec0 3))
    (fun q => (V c (Pipeline.arrRef spec0 4) : S1x64.Idx → Ideal .f32) (ix2 (0 : Fin 1) q))

/-- WHAT POINT t WRITES BACK is block t of `result`. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  have hN : t.val < 20 := by have h := t.isLt; have e : cfg0.N = 20 := N_0; omega
  obtain ⟨-, -, -, -, -, -, -, -, -, -, e50, e51⟩ := idx t
  have hemb : ((cfg0.win 5).blk t).view.emb (ix2 p q) = (ix2 (⟨5000 * t.val + p.val, by omega⟩ : Fin 100000) q : S100000x64.Idx) := by
    funext a; apply Fin.ext
    match a with
    | ⟨0, _⟩ => show win0_5.index t (0 : Fin 2) * 5000 + 1 * p.val = 5000 * t.val + p.val; rw [e50]; omega
    | ⟨1, _⟩ => show win0_5.index t (1 : Fin 2) * 64 + 1 * q.val = q.val; rw [e51]; omega
  show k0_pay1 (iblk0 V c 0 t) (iblk0 V c 1 t) (iblk0 V c 2 t) (iblk0 V c 3 t) (iblk0 V c 4 t) (ix2 p q)
    = result V c (((cfg0.win 5).blk t).view.emb (ix2 p q))
  rw [hemb]
  refine (pay_entry _ _ _ _ _ p q).trans ?_
  unfold result
  rw [layer_ix2]
  refine congrArg relu (lin_congr (fun k => feat0_apply V c t p k _ rfl) (fun k => feat1_apply V c t p k _ rfl)
    (fun k => weight2_apply V c t q k) (fun k => weight3_apply V c t q k) (bias_apply V c t q))

/-- Every row of the result array is in the block of the point its row number divided by 5000 names. -/
theorem cover (i : S100000x64.Idx) : ∃ t : Fin cfg0.N, (cfg0.win 5).flush t = true ∧ i ∈ ((cfg0.win 5).blk t).view.set := by
  have hi0 : (i 0).val < 100000 := idx2_lt0 i
  have hi1 : (i 1).val < 64 := (i 1).isLt
  let t : Fin cfg0.N := ⟨(i 0).val / 5000, by rw [show cfg0.N = 20 from N_0]; omega⟩
  obtain ⟨-, -, -, -, -, -, -, -, -, -, e50, e51⟩ := idx t
  refine ⟨t, flush0_5 t, ?_⟩
  show i ∈ ((View.whole main_v15).slice (win0_5.rect t)).set
  rw [View.set_slice_whole, Rect.mem_set_unit]
  intro a
  match a with
  | ⟨0, _⟩ =>
    show win0_5.index t (0 : Fin 2) * 5000 ≤ (i 0).val ∧ (i 0).val < win0_5.index t (0 : Fin 2) * 5000 + 5000
    rw [e50]; show (i 0).val / 5000 * 5000 ≤ (i 0).val ∧ (i 0).val < (i 0).val / 5000 * 5000 + 5000; omega
  | ⟨1, _⟩ =>
    show win0_5.index t (1 : Fin 2) * 64 ≤ (i 1).val ∧ (i 1).val < win0_5.index t (1 : Fin 2) * 64 + 64
    rw [e51]; omega

/-- THE RESULT ARRAY after the launch: the layer of the arrays as the launch finds them. -/
theorem final (c : Dev nD) : (dat0 V c).arrAt 5 cfg0.N = result V c :=
  (dat0 V c).arrAt_eq_of_cover 5 (result V c) (fun t _ => flushed_eq V c t) (cover)

end Cert.KernelIdeal.Region0

end
-- ==== Proof.Region1.lean ====
/-
  The second layer's launch, read: the result array after it is the layer of the arrays it was entered with.

  The launch tiles the node axis into 20 blocks of 5000 rows.  At grid point t the body reads rows 5000·t … 5000·t + 4999 of
  the aggregated features and of the node features, the two weight matrices and the bias row whole, and writes rows
  5000·t … 5000·t + 4999 of the result.  Entry (p, q) of what it writes depends only on row p of the two feature blocks, so
  the written block is the block of ONE whole-array function, the layer of the arrays as the launch finds them; and since
  the 20 blocks tile the rows, the result array ends holding that function everywhere.
-/
import proofs.«131033_j14894946583442_1_alg».proof.Proof.Gen.KernelIdeal.Frame
import proofs.«131033_j14894946583442_1_alg».proof.Proof.Layer

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.GraphConv Idealize.ShloMosaic.PlainMatmul

/-- The kernel's product is a plain one: rows by columns, no batch axis. -/
theorem plain : IsPlain (M := 5000) (K := 64) (N := 64) dot_S5000x64_S64x64_S5000x64_1_0_0_1_n_n := ⟨rfl, rfl, rfl, rfl, rfl, rfl⟩

theorem hz : (![0, 0] : Fin 2 → Nat) = fun _ => 0 := funext fun a => by fin_cases a <;> rfl

/-- The body's stored value at entry (p, q) of the block: the layer's entry over the loaded blocks. -/
theorem pay_entry (x0 x1 : Vec Ideal S5000x64 .f32) (x2 x3 : Vec Ideal S64x64 .f32) (x4 : Vec Ideal S1x64 .f32)
    (p : Fin 5000) (q : Fin 64) :
    k1_pay1 x0 x1 x2 x3 x4 (ix2 p q) = relu (lin x0 x1 x2 x3 (fun q => x4 (ix2 (0 : Fin 1) q)) p q) := by
  unfold k1_pay1
  dsimp only
  simp only [shapeCast_self]
  rw [maximumf_apply, broadcast_apply]
  exact congrArg (max · (Ideal.ofBits .f32 0x00000000#32)) (matmul_entry dot_S5000x64_S64x64_S5000x64_1_0_0_1_n_n plain none x0 x1 x2 x3 x4 _ _ p q)

/-- Where each window's block sits at grid point t: the two feature windows and the result window at block row t, the
    weights and the bias at their one block. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Feature window 0's block at point t, entry (p, k), is its array's entry (5000·t + p, k). -/
theorem feat0_apply (c : Dev nD) (t : Fin cfg1.N) (p : Fin 5000) (k : Fin 64) (r : Fin 100000) (hr : r.val = 5000 * t.val + p.val) :
    (iblk1 V c 0 t : Vec Ideal S5000x64 .f32) (ix2 p k)
      = (V c (Pipeline.arrRef spec1 0) : S100000x64.Idx → Ideal .f32) (ix2 r k) := by
  obtain ⟨ea, eb, -⟩ := idx t
  unfold iblk1
  rw [View.read_apply]
  refine congrArg (V c (Pipeline.arrRef spec1 0) : S100000x64.Idx → Ideal .f32) (funext fun a => Fin.ext ?_)
  match a with
  | ⟨0, _⟩ => show win1_0.index t (0 : Fin 2) * 5000 + 1 * p.val = r.val; rw [ea, hr]; omega
  | ⟨1, _⟩ => show win1_0.index t (1 : Fin 2) * 64 + 1 * k.val = k.val; rw [eb]; omega

/-- Feature window 1's block at point t, entry (p, k), is its array's entry (5000·t + p, k). -/
theorem feat1_apply (c : Dev nD) (t : Fin cfg1.N) (p : Fin 5000) (k : Fin 64) (r : Fin 100000) (hr : r.val = 5000 * t.val + p.val) :
    (iblk1 V c 1 t : Vec Ideal S5000x64 .f32) (ix2 p k)
      = (V c (Pipeline.arrRef spec1 1) : S100000x64.Idx → Ideal .f32) (ix2 r k) := by
  obtain ⟨-, -, ea, eb, -⟩ := idx t
  unfold iblk1
  rw [View.read_apply]
  refine congrArg (V c (Pipeline.arrRef spec1 1) : S100000x64.Idx → Ideal .f32) (funext fun a => Fin.ext ?_)
  match a with
  | ⟨0, _⟩ => show win1_1.index t (0 : Fin 2) * 5000 + 1 * p.val = r.val; rw [ea, hr]; omega
  | ⟨1, _⟩ => show win1_1.index t (1 : Fin 2) * 64 + 1 * k.val = k.val; rw [eb]; omega

/-- Weight window 2's one block is the whole matrix. -/
theorem weight2_apply (c : Dev nD) (t : Fin cfg1.N) (q : Fin 64) (k : Fin 64) :
    (iblk1 V c 2 t : Vec Ideal S64x64 .f32) (ix2 q k)
      = (V c (Pipeline.arrRef spec1 2) : S64x64.Idx → Ideal .f32) (ix2 q k) := by
  obtain ⟨-, -, -, -, ea, eb, -⟩ := idx t
  unfold iblk1
  rw [View.read_apply]
  refine congrArg (V c (Pipeline.arrRef spec1 2) : S64x64.Idx → Ideal .f32) (funext fun a => Fin.ext ?_)
  match a with
  | ⟨0, _⟩ => show win1_2.index t (0 : Fin 2) * 64 + 1 * q.val = q.val; rw [ea]; omega
  | ⟨1, _⟩ => show win1_2.index t (1 : Fin 2) * 64 + 1 * k.val = k.val; rw [eb]; omega

/-- Weight window 3's one block is the whole matrix. -/
theorem weight3_apply (c : Dev nD) (t : Fin cfg1.N) (q : Fin 64) (k : Fin 64) :
    (iblk1 V c 3 t : Vec Ideal S64x64 .f32) (ix2 q k)
      = (V c (Pipeline.arrRef spec1 3) : S64x64.Idx → Ideal .f32) (ix2 q k) := by
  obtain ⟨-, -, -, -, -, -, ea, eb, -⟩ := idx t
  unfold iblk1
  rw [View.read_apply]
  refine congrArg (V c (Pipeline.arrRef spec1 3) : S64x64.Idx → Ideal .f32) (funext fun a => Fin.ext ?_)
  match a with
  | ⟨0, _⟩ => show win1_3.index t (0 : Fin 2) * 64 + 1 * q.val = q.val; rw [ea]; omega
  | ⟨1, _⟩ => show win1_3.index t (1 : Fin 2) * 64 + 1 * k.val = k.val; rw [eb]; omega

/-- The bias window's one block is the whole row. -/
theorem bias_apply (c : Dev nD) (t : Fin cfg1.N) (q : Fin 64) :
    (iblk1 V c 4 t : Vec Ideal S1x64 .f32) (ix2 (0 : Fin 1) q)
      = (V c (Pipeline.arrRef spec1 4) : S1x64.Idx → Ideal .f32) (ix2 (0 : Fin 1) q) := by
  obtain ⟨-, -, -, -, -, -, -, -, e40, e41, -⟩ := idx t
  unfold iblk1
  rw [View.read_apply]
  refine congrArg (V c (Pipeline.arrRef spec1 4) : S1x64.Idx → Ideal .f32) (funext fun a => Fin.ext ?_)
  match a with
  | ⟨0, _⟩ => show win1_4.index t (0 : Fin 2) * 1 + 1 * 0 = 0; rw [e40]
  | ⟨1, _⟩ => show win1_4.index t (1 : Fin 2) * 64 + 1 * q.val = q.val; rw [e41]; omega

/-- The layer of the arrays as the launch finds them: what the result array ends holding. -/
def result (c : Dev nD) : S100000x64.Idx → Ideal .f32 :=
  layer (M := 100000) (K := 64) (N := 64) relu
    (V c (Pipeline.arrRef spec1 0)) (V c (Pipeline.arrRef spec1 1)) (V c (Pipeline.arrRef spec1 2)) (V c (Pipeline.arrRef spec1 3))
    (fun q => (V c (Pipeline.arrRef spec1 4) : S1x64.Idx → Ideal .f32) (ix2 (0 : Fin 1) q))

/-- WHAT POINT t WRITES BACK is block t of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  have hN : t.val < 20 := by have h := t.isLt; have e : cfg1.N = 20 := N_1; omega
  obtain ⟨-, -, -, -, -, -, -, -, -, -, e50, e51⟩ := idx t
  have hemb : ((cfg1.win 5).blk t).view.emb (ix2 p q) = (ix2 (⟨5000 * t.val + p.val, by omega⟩ : Fin 100000) q : S100000x64.Idx) := by
    funext a; apply Fin.ext
    match a with
    | ⟨0, _⟩ => show win1_5.index t (0 : Fin 2) * 5000 + 1 * p.val = 5000 * t.val + p.val; rw [e50]; omega
    | ⟨1, _⟩ => show win1_5.index t (1 : Fin 2) * 64 + 1 * q.val = q.val; rw [e51]; omega
  show k1_pay1 (iblk1 V c 0 t) (iblk1 V c 1 t) (iblk1 V c 2 t) (iblk1 V c 3 t) (iblk1 V c 4 t) (ix2 p q)
    = result V c (((cfg1.win 5).blk t).view.emb (ix2 p q))
  rw [hemb]
  refine (pay_entry _ _ _ _ _ p q).trans ?_
  unfold result
  rw [layer_ix2]
  refine congrArg relu (lin_congr (fun k => feat0_apply V c t p k _ rfl) (fun k => feat1_apply V c t p k _ rfl)
    (fun k => weight2_apply V c t q k) (fun k => weight3_apply V c t q k) (bias_apply V c t q))

/-- Every row of the result array is in the block of the point its row number divided by 5000 names. -/
theorem cover (i : S100000x64.Idx) : ∃ t : Fin cfg1.N, (cfg1.win 5).flush t = true ∧ i ∈ ((cfg1.win 5).blk t).view.set := by
  have hi0 : (i 0).val < 100000 := idx2_lt0 i
  have hi1 : (i 1).val < 64 := (i 1).isLt
  let t : Fin cfg1.N := ⟨(i 0).val / 5000, by rw [show cfg1.N = 20 from N_1]; omega⟩
  obtain ⟨-, -, -, -, -, -, -, -, -, -, e50, e51⟩ := idx t
  refine ⟨t, flush1_5 t, ?_⟩
  show i ∈ ((View.whole main_v27).slice (win1_5.rect t)).set
  rw [View.set_slice_whole, Rect.mem_set_unit]
  intro a
  match a with
  | ⟨0, _⟩ =>
    show win1_5.index t (0 : Fin 2) * 5000 ≤ (i 0).val ∧ (i 0).val < win1_5.index t (0 : Fin 2) * 5000 + 5000
    rw [e50]; show (i 0).val / 5000 * 5000 ≤ (i 0).val ∧ (i 0).val < (i 0).val / 5000 * 5000 + 5000; omega
  | ⟨1, _⟩ =>
    show win1_5.index t (1 : Fin 2) * 64 ≤ (i 1).val ∧ (i 1).val < win1_5.index t (1 : Fin 2) * 64 + 64
    rw [e51]; omega

/-- THE RESULT ARRAY after the launch: the layer of the arrays as the launch finds them. -/
theorem final (c : Dev nD) : (dat1 V c).arrAt 5 cfg1.N = result V c :=
  (dat1 V c).arrAt_eq_of_cover 5 (result V c) (fun t _ => flushed_eq V c t) (cover)

end Cert.KernelIdeal.Region1

end
-- ==== Proof.Region2.lean ====
/-
  The output layer's launch, read: the result array after it is the layer of the arrays it was entered with.

  The launch tiles the node axis into 20 blocks of 5000 rows.  At grid point t the body reads rows 5000·t … 5000·t + 4999 of
  the aggregated features and of the node features, the two weight matrices and the bias row whole, and writes rows
  5000·t … 5000·t + 4999 of the result.  Entry (p, q) of what it writes depends only on row p of the two feature blocks, so
  the written block is the block of ONE whole-array function, the layer of the arrays as the launch finds them; and since
  the 20 blocks tile the rows, the result array ends holding that function everywhere.
-/
import proofs.«131033_j14894946583442_1_alg».proof.Proof.Gen.KernelIdeal.Frame
import proofs.«131033_j14894946583442_1_alg».proof.Proof.Layer

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.GraphConv Idealize.ShloMosaic.PlainMatmul

/-- The kernel's product is a plain one: rows by columns, no batch axis. -/
theorem plain : IsPlain (M := 5000) (K := 64) (N := 2) dot_S5000x64_S64x2_S5000x2_1_0_0_1_n_n := ⟨rfl, rfl, rfl, rfl, rfl, rfl⟩

theorem hz : (![0, 0] : Fin 2 → Nat) = fun _ => 0 := funext fun a => by fin_cases a <;> rfl

/-- The body's stored value at entry (p, q) of the block: the layer's entry over the loaded blocks. -/
theorem pay_entry (x0 x1 : Vec Ideal S5000x64 .f32) (x2 x3 : Vec Ideal S2x64 .f32) (x4 : Vec Ideal S1x2 .f32)
    (p : Fin 5000) (q : Fin 2) :
    k2_pay1 x0 x1 x2 x3 x4 (ix2 p q) = id (lin x0 x1 x2 x3 (fun q => x4 (ix2 (0 : Fin 1) q)) p q) := by
  unfold k2_pay1
  dsimp only
  simp only [shapeCast_self]
  exact matmul_entry dot_S5000x64_S64x2_S5000x2_1_0_0_1_n_n plain none x0 x1 x2 x3 x4 _ _ p q

/-- Where each window's block sits at grid point t: the two feature windows and the result window at block row t, the
    weights and the bias at their one block. -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- Feature window 0's block at point t, entry (p, k), is its array's entry (5000·t + p, k). -/
theorem feat0_apply (c : Dev nD) (t : Fin cfg2.N) (p : Fin 5000) (k : Fin 64) (r : Fin 100000) (hr : r.val = 5000 * t.val + p.val) :
    (iblk2 V c 0 t : Vec Ideal S5000x64 .f32) (ix2 p k)
      = (V c (Pipeline.arrRef spec2 0) : S100000x64.Idx → Ideal .f32) (ix2 r k) := by
  obtain ⟨ea, eb, -⟩ := idx t
  unfold iblk2
  rw [View.read_apply]
  refine congrArg (V c (Pipeline.arrRef spec2 0) : S100000x64.Idx → Ideal .f32) (funext fun a => Fin.ext ?_)
  match a with
  | ⟨0, _⟩ => show win2_0.index t (0 : Fin 2) * 5000 + 1 * p.val = r.val; rw [ea, hr]; omega
  | ⟨1, _⟩ => show win2_0.index t (1 : Fin 2) * 64 + 1 * k.val = k.val; rw [eb]; omega

/-- Feature window 1's block at point t, entry (p, k), is its array's entry (5000·t + p, k). -/
theorem feat1_apply (c : Dev nD) (t : Fin cfg2.N) (p : Fin 5000) (k : Fin 64) (r : Fin 100000) (hr : r.val = 5000 * t.val + p.val) :
    (iblk2 V c 1 t : Vec Ideal S5000x64 .f32) (ix2 p k)
      = (V c (Pipeline.arrRef spec2 1) : S100000x64.Idx → Ideal .f32) (ix2 r k) := by
  obtain ⟨-, -, ea, eb, -⟩ := idx t
  unfold iblk2
  rw [View.read_apply]
  refine congrArg (V c (Pipeline.arrRef spec2 1) : S100000x64.Idx → Ideal .f32) (funext fun a => Fin.ext ?_)
  match a with
  | ⟨0, _⟩ => show win2_1.index t (0 : Fin 2) * 5000 + 1 * p.val = r.val; rw [ea, hr]; omega
  | ⟨1, _⟩ => show win2_1.index t (1 : Fin 2) * 64 + 1 * k.val = k.val; rw [eb]; omega

/-- Weight window 2's one block is the whole matrix. -/
theorem weight2_apply (c : Dev nD) (t : Fin cfg2.N) (q : Fin 2) (k : Fin 64) :
    (iblk2 V c 2 t : Vec Ideal S2x64 .f32) (ix2 q k)
      = (V c (Pipeline.arrRef spec2 2) : S2x64.Idx → Ideal .f32) (ix2 q k) := by
  obtain ⟨-, -, -, -, ea, eb, -⟩ := idx t
  unfold iblk2
  rw [View.read_apply]
  refine congrArg (V c (Pipeline.arrRef spec2 2) : S2x64.Idx → Ideal .f32) (funext fun a => Fin.ext ?_)
  match a with
  | ⟨0, _⟩ => show win2_2.index t (0 : Fin 2) * 2 + 1 * q.val = q.val; rw [ea]; omega
  | ⟨1, _⟩ => show win2_2.index t (1 : Fin 2) * 64 + 1 * k.val = k.val; rw [eb]; omega

/-- Weight window 3's one block is the whole matrix. -/
theorem weight3_apply (c : Dev nD) (t : Fin cfg2.N) (q : Fin 2) (k : Fin 64) :
    (iblk2 V c 3 t : Vec Ideal S2x64 .f32) (ix2 q k)
      = (V c (Pipeline.arrRef spec2 3) : S2x64.Idx → Ideal .f32) (ix2 q k) := by
  obtain ⟨-, -, -, -, -, -, ea, eb, -⟩ := idx t
  unfold iblk2
  rw [View.read_apply]
  refine congrArg (V c (Pipeline.arrRef spec2 3) : S2x64.Idx → Ideal .f32) (funext fun a => Fin.ext ?_)
  match a with
  | ⟨0, _⟩ => show win2_3.index t (0 : Fin 2) * 2 + 1 * q.val = q.val; rw [ea]; omega
  | ⟨1, _⟩ => show win2_3.index t (1 : Fin 2) * 64 + 1 * k.val = k.val; rw [eb]; omega

/-- The bias window's one block is the whole row. -/
theorem bias_apply (c : Dev nD) (t : Fin cfg2.N) (q : Fin 2) :
    (iblk2 V c 4 t : Vec Ideal S1x2 .f32) (ix2 (0 : Fin 1) q)
      = (V c (Pipeline.arrRef spec2 4) : S1x2.Idx → Ideal .f32) (ix2 (0 : Fin 1) q) := by
  obtain ⟨-, -, -, -, -, -, -, -, e40, e41, -⟩ := idx t
  unfold iblk2
  rw [View.read_apply]
  refine congrArg (V c (Pipeline.arrRef spec2 4) : S1x2.Idx → Ideal .f32) (funext fun a => Fin.ext ?_)
  match a with
  | ⟨0, _⟩ => show win2_4.index t (0 : Fin 2) * 1 + 1 * 0 = 0; rw [e40]
  | ⟨1, _⟩ => show win2_4.index t (1 : Fin 2) * 2 + 1 * q.val = q.val; rw [e41]; omega

/-- The layer of the arrays as the launch finds them: what the result array ends holding. -/
def result (c : Dev nD) : S100000x2.Idx → Ideal .f32 :=
  layer (M := 100000) (K := 64) (N := 2) id
    (V c (Pipeline.arrRef spec2 0)) (V c (Pipeline.arrRef spec2 1)) (V c (Pipeline.arrRef spec2 2)) (V c (Pipeline.arrRef spec2 3))
    (fun q => (V c (Pipeline.arrRef spec2 4) : S1x2.Idx → Ideal .f32) (ix2 (0 : Fin 1) q))

/-- WHAT POINT t WRITES BACK is block t of `result`. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero hz]
  simp only [View.ld_unit_zero (S := S5000x64) hz, View.ld_unit_zero (S := S2x64) hz, View.ld_unit_zero (S := S1x2) hz]
  funext j
  obtain ⟨p, q, rfl⟩ : ∃ (p : Fin 5000) (q : Fin 2), j = ix2 p q := ⟨j 0, j 1, eq_ix2 j⟩
  have hN : t.val < 20 := by have h := t.isLt; have e : cfg2.N = 20 := N_2; omega
  obtain ⟨-, -, -, -, -, -, -, -, -, -, e50, e51⟩ := idx t
  have hemb : ((cfg2.win 5).blk t).view.emb (ix2 p q) = (ix2 (⟨5000 * t.val + p.val, by omega⟩ : Fin 100000) q : S100000x2.Idx) := by
    funext a; apply Fin.ext
    match a with
    | ⟨0, _⟩ => show win2_5.index t (0 : Fin 2) * 5000 + 1 * p.val = 5000 * t.val + p.val; rw [e50]; omega
    | ⟨1, _⟩ => show win2_5.index t (1 : Fin 2) * 2 + 1 * q.val = q.val; rw [e51]; omega
  show k2_pay1 (iblk2 V c 0 t) (iblk2 V c 1 t) (iblk2 V c 2 t) (iblk2 V c 3 t) (iblk2 V c 4 t) (ix2 p q)
    = result V c (((cfg2.win 5).blk t).view.emb (ix2 p q))
  rw [hemb]
  refine (pay_entry _ _ _ _ _ p q).trans ?_
  unfold result
  rw [layer_ix2]
  refine congrArg id (lin_congr (fun k => feat0_apply V c t p k _ rfl) (fun k => feat1_apply V c t p k _ rfl)
    (fun k => weight2_apply V c t q k) (fun k => weight3_apply V c t q k) (bias_apply V c t q))

/-- Every row of the result array is in the block of the point its row number divided by 5000 names. -/
theorem cover (i : S100000x2.Idx) : ∃ t : Fin cfg2.N, (cfg2.win 5).flush t = true ∧ i ∈ ((cfg2.win 5).blk t).view.set := by
  have hi0 : (i 0).val < 100000 := idx2_lt0 i
  have hi1 : (i 1).val < 2 := (i 1).isLt
  let t : Fin cfg2.N := ⟨(i 0).val / 5000, by rw [show cfg2.N = 20 from N_2]; omega⟩
  obtain ⟨-, -, -, -, -, -, -, -, -, -, e50, e51⟩ := idx t
  refine ⟨t, flush2_5 t, ?_⟩
  show i ∈ ((View.whole main_v39).slice (win2_5.rect t)).set
  rw [View.set_slice_whole, Rect.mem_set_unit]
  intro a
  match a with
  | ⟨0, _⟩ =>
    show win2_5.index t (0 : Fin 2) * 5000 ≤ (i 0).val ∧ (i 0).val < win2_5.index t (0 : Fin 2) * 5000 + 5000
    rw [e50]; show (i 0).val / 5000 * 5000 ≤ (i 0).val ∧ (i 0).val < (i 0).val / 5000 * 5000 + 5000; omega
  | ⟨1, _⟩ =>
    show win2_5.index t (1 : Fin 2) * 2 ≤ (i 1).val ∧ (i 1).val < win2_5.index t (1 : Fin 2) * 2 + 2
    rw [e51]; omega

/-- THE RESULT ARRAY after the launch: the layer of the arrays as the launch finds them. -/
theorem final (c : Dev nD) : (dat2 V c).arrAt 5 cfg2.N = result V c :=
  (dat2 V c).arrAt_eq_of_cover 5 (result V c) (fun t _ => flushed_eq V c t) (cover)

end Cert.KernelIdeal.Region2

end
-- ==== Proof.KernelValue.lean ====
/-
  The idealized kernel program's result, read as three graph-convolution layers.

  Between the launches the host aggregates neighbour features (a gather of source rows scattered with addition into
  destination rows) and re-lays each bias vector as a one-row matrix.  Each launch leaves in its result array the layer of
  the arrays it was entered with.  Followed through the three launches, the result buffer ends at the third layer of the
  second of the first, each over its own aggregation, of the launch contents of the arguments.
-/
import proofs.«131033_j14894946583442_1_alg».proof.Proof.KernelRun
import proofs.«131033_j14894946583442_1_alg».proof.Proof.Region0
import proofs.«131033_j14894946583442_1_alg».proof.Proof.Region1
import proofs.«131033_j14894946583442_1_alg».proof.Proof.Region2

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem Idealize.ShloMosaic.StableHlo
open Cert.GraphConv

/-- The source node of every edge: row 0 of the edge list. -/
def srcOf (e : IVec S2x1600000 32) : IVec S1600000 32 :=
  shapeCast _ (extractStridedSlice S1x1600000 ![0, 0] e slices_S2x1600000_S1x1600000_0_0) shapeCasts_S1x1600000_S1600000

/-- The destination node of every edge: row 1 of the edge list. -/
def dstOf (e : IVec S2x1600000 32) : IVec S1600000 32 :=
  shapeCast _ (extractStridedSlice S1x1600000 ![1, 0] e slices_S2x1600000_S1x1600000_1_0) shapeCasts_S1x1600000_S1600000

/-- The neighbour aggregation: the source rows (a negative source counted from the end) gathered and added into the
    destination rows of a zero matrix.  Both programs compute it by the same host operations, and nothing about it is used beyond that. -/
def agg (feat : FVec Ideal S100000x64 .f32) (s d : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 feat
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

variable (m : (ℓ : Loc nD τ sig) → Buf (Elt Ideal) ℓ) (ρ : Dev nD → PrngReg)

/-- The three layers over the launch contents of the arguments. -/
def h1 (c : Dev nD) : FVec Ideal S100000x64 .f32 :=
  layer (M := 100000) (K := 64) (N := 64) relu (agg (m ((c.tc : Thread nD τ).loc main_arg0)) (srcOf (m ((c.tc : Thread nD τ).loc main_arg1))) (dstOf (m ((c.tc : Thread nD τ).loc main_arg1))))
    (m ((c.tc : Thread nD τ).loc main_arg0)) (m ((c.tc : Thread nD τ).loc main_arg2)) (m ((c.tc : Thread nD τ).loc main_arg3)) (fun q => ((m ((c.tc : Thread nD τ).loc main_arg4)) : S64.Idx → Ideal .f32) (ix1 q))
def h2 (c : Dev nD) : FVec Ideal S100000x64 .f32 :=
  layer (M := 100000) (K := 64) (N := 64) relu (agg (h1 m c) (srcOf (m ((c.tc : Thread nD τ).loc main_arg1))) (dstOf (m ((c.tc : Thread nD τ).loc main_arg1))))
    (h1 m c) (m ((c.tc : Thread nD τ).loc main_arg5)) (m ((c.tc : Thread nD τ).loc main_arg6)) (fun q => ((m ((c.tc : Thread nD τ).loc main_arg7)) : S64.Idx → Ideal .f32) (ix1 q))
def h3 (c : Dev nD) : FVec Ideal S100000x2 .f32 :=
  layer (M := 100000) (K := 64) (N := 2) id (agg (h2 m c) (srcOf (m ((c.tc : Thread nD τ).loc main_arg1))) (dstOf (m ((c.tc : Thread nD τ).loc main_arg1))))
    (h2 m c) (m ((c.tc : Thread nD τ).loc main_arg8)) (m ((c.tc : Thread nD τ).loc main_arg9)) (fun q => ((m ((c.tc : Thread nD τ).loc main_arg10)) : S2.Idx → Ideal .f32) (ix1 q))

/-! ## Before the first launch -/

theorem src1 (c : Dev nD) : W1 m ρ c (Proc.devRef .tc main_v1) = srcOf (m ((c.tc : Thread nD τ).loc main_arg1)) := by
  dsimp only [W1, hostOps0]; after_results; rfl
theorem dst1 (c : Dev nD) : W1 m ρ c (Proc.devRef .tc main_v3) = dstOf (m ((c.tc : Thread nD τ).loc main_arg1)) := by
  dsimp only [W1, hostOps0]; after_results; rfl
theorem agg1 (c : Dev nD) : W1 m ρ c (Proc.devRef .tc main_v13) = agg (m ((c.tc : Thread nD τ).loc main_arg0)) (srcOf (m ((c.tc : Thread nD τ).loc main_arg1))) (dstOf (m ((c.tc : Thread nD τ).loc main_arg1))) := by
  dsimp only [W1, hostOps0]; after_results; rfl
theorem bias1 (c : Dev nD) : W1 m ρ c (Proc.devRef .tc main_v14) = shapeCast S1x64 ((m ((c.tc : Thread nD τ).loc main_arg4)) : S64.Idx → Ideal .f32) shapeCasts_S64_S1x64 := by
  dsimp only [W1, hostOps0]; after_results; rfl
theorem arg1 (c : Dev nD) (a : Ref sig .tc) (ha : a = main_arg0 ∨ a = main_arg2 ∨ a = main_arg3 ∨ a = main_arg5 ∨ a = main_arg6 ∨ a = main_arg7 ∨ a = main_arg8 ∨ a = main_arg9 ∨ a = main_arg10) :
    W1 m ρ c (Proc.devRef .tc a) = m ((c.tc : Thread nD τ).loc a) := by
  rcases ha with rfl | rfl | rfl | rfl | rfl | rfl | rfl | rfl | rfl <;> (dsimp only [W1, hostOps0]; after_results <;> rfl)

/-- AFTER THE FIRST LAUNCH its result array holds the first layer. -/
theorem layer1 (c : Dev nD) : W2 m ρ c (Proc.devRef .tc main_v15) = h1 m c := by
  refine (W2_arr m ρ c 5).trans ((Region0.final (V1 m ρ) c).trans ?_)
  unfold Region0.result h1
  show layer relu (W1 m ρ c (Proc.devRef .tc main_v13)) (W1 m ρ c (Proc.devRef .tc main_arg0)) (W1 m ρ c (Proc.devRef .tc main_arg2)) (W1 m ρ c (Proc.devRef .tc main_arg3))
    (fun q => (W1 m ρ c (Proc.devRef .tc main_v14) : S1x64.Idx → Ideal .f32) (ix2 (0 : Fin 1) q)) = _
  rw [agg1, bias1, arg1 m ρ c main_arg0 (by simp), arg1 m ρ c main_arg2 (by simp), arg1 m ρ c main_arg3 (by simp)]
  exact congrArg _ (funext fun q => rowOfVec_apply _ _ q)

/-! ## Between the first and the second launch -/

theorem src2 (c : Dev nD) : W2 m ρ c (Proc.devRef .tc main_v1) = srcOf (m ((c.tc : Thread nD τ).loc main_arg1)) := (W2_of_ne m ρ c main_v1 (by decide)).trans (src1 m ρ c)
theorem dst2 (c : Dev nD) : W2 m ρ c (Proc.devRef .tc main_v3) = dstOf (m ((c.tc : Thread nD τ).loc main_arg1)) := (W2_of_ne m ρ c main_v3 (by decide)).trans (dst1 m ρ c)
theorem arg2 (c : Dev nD) (a : Ref sig .tc) (ha : a = main_arg5 ∨ a = main_arg6 ∨ a = main_arg7 ∨ a = main_arg8 ∨ a = main_arg9 ∨ a = main_arg10) :
    W2 m ρ c (Proc.devRef .tc a) = m ((c.tc : Thread nD τ).loc a) := by
  rcases ha with rfl | rfl | rfl | rfl | rfl | rfl
  · exact (W2_of_ne m ρ c main_arg5 (by decide)).trans (arg1 m ρ c main_arg5 (by simp))
  · exact (W2_of_ne m ρ c main_arg6 (by decide)).trans (arg1 m ρ c main_arg6 (by simp))
  · exact (W2_of_ne m ρ c main_arg7 (by decide)).trans (arg1 m ρ c main_arg7 (by simp))
  · exact (W2_of_ne m ρ c main_arg8 (by decide)).trans (arg1 m ρ c main_arg8 (by simp))
  · exact (W2_of_ne m ρ c main_arg9 (by decide)).trans (arg1 m ρ c main_arg9 (by simp))
  · exact (W2_of_ne m ρ c main_arg10 (by decide)).trans (arg1 m ρ c main_arg10 (by simp))

theorem src3 (c : Dev nD) : W3 m ρ c (Proc.devRef .tc main_v1) = srcOf (m ((c.tc : Thread nD τ).loc main_arg1)) :=
  (by dsimp only [W3, hostOps1]; after_results <;> rfl : W3 m ρ c (Proc.devRef .tc main_v1) = W2 m ρ c (Proc.devRef .tc main_v1)).trans (src2 m ρ c)
theorem dst3 (c : Dev nD) : W3 m ρ c (Proc.devRef .tc main_v3) = dstOf (m ((c.tc : Thread nD τ).loc main_arg1)) :=
  (by dsimp only [W3, hostOps1]; after_results <;> rfl : W3 m ρ c (Proc.devRef .tc main_v3) = W2 m ρ c (Proc.devRef .tc main_v3)).trans (dst2 m ρ c)
theorem agg3 (c : Dev nD) : W3 m ρ c (Proc.devRef .tc main_v25) = agg (h1 m c) (srcOf (m ((c.tc : Thread nD τ).loc main_arg1))) (dstOf (m ((c.tc : Thread nD τ).loc main_arg1))) := by
  have e0 : W3 m ρ c (Proc.devRef .tc main_v25) = agg (W2 m ρ c (Proc.devRef .tc main_v15)) (W2 m ρ c (Proc.devRef .tc main_v1)) (W2 m ρ c (Proc.devRef .tc main_v3)) := by
    dsimp only [W3, hostOps1]; after_results <;> rfl
  rw [e0, layer1, src2, dst2]
theorem feat3 (c : Dev nD) : W3 m ρ c (Proc.devRef .tc main_v15) = h1 m c :=
  (by dsimp only [W3, hostOps1]; after_results <;> rfl : W3 m ρ c (Proc.devRef .tc main_v15) = W2 m ρ c (Proc.devRef .tc main_v15)).trans (layer1 m ρ c)
theorem bias3 (c : Dev nD) : W3 m ρ c (Proc.devRef .tc main_v26) = shapeCast S1x64 ((m ((c.tc : Thread nD τ).loc main_arg7)) : S64.Idx → Ideal .f32) shapeCasts_S64_S1x64 := by
  have e0 : W3 m ρ c (Proc.devRef .tc main_v26) = shapeCast S1x64 (W2 m ρ c (Proc.devRef .tc main_arg7) : S64.Idx → Ideal .f32) shapeCasts_S64_S1x64 := by
    dsimp only [W3, hostOps1]; after_results <;> rfl
  rw [e0, arg2 m ρ c main_arg7 (by simp)]
theorem arg3 (c : Dev nD) (a : Ref sig .tc) (ha : a = main_arg5 ∨ a = main_arg6 ∨ a = main_arg8 ∨ a = main_arg9 ∨ a = main_arg10) :
    W3 m ρ c (Proc.devRef .tc a) = m ((c.tc : Thread nD τ).loc a) := by
  rcases ha with rfl | rfl | rfl | rfl | rfl
  · exact (by dsimp only [W3, hostOps1]; after_results <;> rfl : W3 m ρ c (Proc.devRef .tc main_arg5) = W2 m ρ c (Proc.devRef .tc main_arg5)).trans (arg2 m ρ c main_arg5 (by simp))
  · exact (by dsimp only [W3, hostOps1]; after_results <;> rfl : W3 m ρ c (Proc.devRef .tc main_arg6) = W2 m ρ c (Proc.devRef .tc main_arg6)).trans (arg2 m ρ c main_arg6 (by simp))
  · exact (by dsimp only [W3, hostOps1]; after_results <;> rfl : W3 m ρ c (Proc.devRef .tc main_arg8) = W2 m ρ c (Proc.devRef .tc main_arg8)).trans (arg2 m ρ c main_arg8 (by simp))
  · exact (by dsimp only [W3, hostOps1]; after_results <;> rfl : W3 m ρ c (Proc.devRef .tc main_arg9) = W2 m ρ c (Proc.devRef .tc main_arg9)).trans (arg2 m ρ c main_arg9 (by simp))
  · exact (by dsimp only [W3, hostOps1]; after_results <;> rfl : W3 m ρ c (Proc.devRef .tc main_arg10) = W2 m ρ c (Proc.devRef .tc main_arg10)).trans (arg2 m ρ c main_arg10 (by simp))

/-- AFTER THE SECOND LAUNCH its result array holds the second layer. -/
theorem layer2 (c : Dev nD) : W4 m ρ c (Proc.devRef .tc main_v27) = h2 m c := by
  refine (W4_arr m ρ c 5).trans ((Region1.final (V3 m ρ) c).trans ?_)
  unfold Region1.result h2
  show layer relu (W3 m ρ c (Proc.devRef .tc main_v25)) (W3 m ρ c (Proc.devRef .tc main_v15)) (W3 m ρ c (Proc.devRef .tc main_arg5)) (W3 m ρ c (Proc.devRef .tc main_arg6))
    (fun q => (W3 m ρ c (Proc.devRef .tc main_v26) : S1x64.Idx → Ideal .f32) (ix2 (0 : Fin 1) q)) = _
  rw [agg3, feat3, bias3, arg3 m ρ c main_arg5 (by simp), arg3 m ρ c main_arg6 (by simp)]
  exact congrArg _ (funext fun q => rowOfVec_apply _ _ q)

/-! ## Between the second and the third launch -/

theorem src4 (c : Dev nD) : W4 m ρ c (Proc.devRef .tc main_v1) = srcOf (m ((c.tc : Thread nD τ).loc main_arg1)) := (W4_of_ne m ρ c main_v1 (by decide)).trans (src3 m ρ c)
theorem dst4 (c : Dev nD) : W4 m ρ c (Proc.devRef .tc main_v3) = dstOf (m ((c.tc : Thread nD τ).loc main_arg1)) := (W4_of_ne m ρ c main_v3 (by decide)).trans (dst3 m ρ c)
theorem arg4 (c : Dev nD) (a : Ref sig .tc) (ha : a = main_arg8 ∨ a = main_arg9 ∨ a = main_arg10) :
    W4 m ρ c (Proc.devRef .tc a) = m ((c.tc : Thread nD τ).loc a) := by
  rcases ha with rfl | rfl | rfl
  · exact (W4_of_ne m ρ c main_arg8 (by decide)).trans (arg3 m ρ c main_arg8 (by simp))
  · exact (W4_of_ne m ρ c main_arg9 (by decide)).trans (arg3 m ρ c main_arg9 (by simp))
  · exact (W4_of_ne m ρ c main_arg10 (by decide)).trans (arg3 m ρ c main_arg10 (by simp))

theorem agg5 (c : Dev nD) : W5 m ρ c (Proc.devRef .tc main_v37) = agg (h2 m c) (srcOf (m ((c.tc : Thread nD τ).loc main_arg1))) (dstOf (m ((c.tc : Thread nD τ).loc main_arg1))) := by
  have e0 : W5 m ρ c (Proc.devRef .tc main_v37) = agg (W4 m ρ c (Proc.devRef .tc main_v27)) (W4 m ρ c (Proc.devRef .tc main_v1)) (W4 m ρ c (Proc.devRef .tc main_v3)) := by
    dsimp only [W5, hostOps2]; after_results <;> rfl
  rw [e0, layer2, src4, dst4]
theorem feat5 (c : Dev nD) : W5 m ρ c (Proc.devRef .tc main_v27) = h2 m c :=
  (by dsimp only [W5, hostOps2]; after_results <;> rfl : W5 m ρ c (Proc.devRef .tc main_v27) = W4 m ρ c (Proc.devRef .tc main_v27)).trans (layer2 m ρ c)
theorem bias5 (c : Dev nD) : W5 m ρ c (Proc.devRef .tc main_v38) = shapeCast S1x2 ((m ((c.tc : Thread nD τ).loc main_arg10)) : S2.Idx → Ideal .f32) shapeCasts_S2_S1x2 := by
  have e0 : W5 m ρ c (Proc.devRef .tc main_v38) = shapeCast S1x2 (W4 m ρ c (Proc.devRef .tc main_arg10) : S2.Idx → Ideal .f32) shapeCasts_S2_S1x2 := by
    dsimp only [W5, hostOps2]; after_results <;> rfl
  rw [e0, arg4 m ρ c main_arg10 (by simp)]
theorem arg5 (c : Dev nD) (a : Ref sig .tc) (ha : a = main_arg8 ∨ a = main_arg9) :
    W5 m ρ c (Proc.devRef .tc a) = m ((c.tc : Thread nD τ).loc a) := by
  rcases ha with rfl | rfl
  · exact (by dsimp only [W5, hostOps2]; after_results <;> rfl : W5 m ρ c (Proc.devRef .tc main_arg8) = W4 m ρ c (Proc.devRef .tc main_arg8)).trans (arg4 m ρ c main_arg8 (by simp))
  · exact (by dsimp only [W5, hostOps2]; after_results <;> rfl : W5 m ρ c (Proc.devRef .tc main_arg9) = W4 m ρ c (Proc.devRef .tc main_arg9)).trans (arg4 m ρ c main_arg9 (by simp))

/-- THE THIRD LAUNCH'S RESULT ARRAY holds the third layer. -/
theorem layer3 (c : Dev nD) : (dat2 (V5 m ρ) c).arrAt 5 cfg2.N = h3 m c := by
  refine (Region2.final (V5 m ρ) c).trans ?_
  unfold Region2.result h3
  show layer id (W5 m ρ c (Proc.devRef .tc main_v37)) (W5 m ρ c (Proc.devRef .tc main_v27)) (W5 m ρ c (Proc.devRef .tc main_arg8)) (W5 m ρ c (Proc.devRef .tc main_arg9))
    (fun q => (W5 m ρ c (Proc.devRef .tc main_v38) : S1x2.Idx → Ideal .f32) (ix2 (0 : Fin 1) q)) = _
  rw [agg5, feat5, bias5, arg5 m ρ c main_arg8 (by simp), arg5 m ρ c main_arg9 (by simp)]
  exact congrArg _ (funext fun q => rowOfVec_apply _ _ q)

/-! ## The run, read -/

/-- Every weakly fair execution of the idealized kernel program terminates, nothing faulting, with the result buffer at
    the third layer and every argument as launched. -/
theorem run : θ_run defs (onTc (τ := τ) (main (F := Ideal))) ⟨m, fun _ => 0, ρ⟩ (fun r => ∀ c : Dev nD,
      r.2.mem ((c.tc : Thread nD τ).loc main_v39) = h3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (layer3 m ρ c), (h c).2⟩) (Cert.KernelIdeal.Whole.run_result m ρ)

end Cert.KernelIdeal.Layers

end
-- ==== Proof.Bridge.lean ====
/-
  The two programs compute one function.

  From memories that agree on the arguments, the reference's result (three layers as host contractions and broadcasts) and
  the kernel program's result (three launches) are the same three layers over the same aggregations: each reference layer is
  the layer function entry by entry, and the aggregation is literally the same composition of host operations in both
  programs.
-/
import proofs.«131033_j14894946583442_1_alg».proof.Proof.RefValue
import proofs.«131033_j14894946583442_1_alg».proof.Proof.KernelValue

set_option maxRecDepth 16384

noncomputable section

namespace Cert.Proof.Bridge

open Idealize.ShloMosaic Idealize.ShloMosaic.TcCoe Idealize.ShloMosaic.ValueIdx Idealize.SL.Sem
open Cert.GraphConv

/-- The two programs' aggregations are one function: the same host operations over the same shapes. -/
theorem agg_eq (feat : FVec Ideal Cert.KernelIdeal.S100000x64 .f32) (s d : IVec Cert.KernelIdeal.S1600000 32) :
    Cert.ReferenceIdeal.RefValue.agg feat s d = Cert.KernelIdeal.Layers.agg feat s d := rfl
theorem srcOf_eq (e : IVec Cert.KernelIdeal.S2x1600000 32) : Cert.ReferenceIdeal.RefValue.srcOf e = Cert.KernelIdeal.Layers.srcOf e := rfl
theorem dstOf_eq (e : IVec Cert.KernelIdeal.S2x1600000 32) : Cert.ReferenceIdeal.RefValue.dstOf e = Cert.KernelIdeal.Layers.dstOf e := rfl

/-- From memories agreeing on the arguments the reference's three layers are the kernel program's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))) :
    Cert.ReferenceIdeal.RefValue.h3 m' c = Cert.KernelIdeal.Layers.h3 m c := by
  obtain ⟨a0, a1, a2, a3, a4, a5, a6, a7, a8, a9, a10⟩ := h
  unfold Cert.ReferenceIdeal.RefValue.h3 Cert.ReferenceIdeal.RefValue.h2 Cert.ReferenceIdeal.RefValue.h1
  unfold Cert.KernelIdeal.Layers.h3 Cert.KernelIdeal.Layers.h2 Cert.KernelIdeal.Layers.h1
  rw [a0, a1, a2, a3, a4, a5, a6, a7, a8, a9, a10]
  simp only [Cert.ReferenceIdeal.RefValue.hidden_eq, Cert.ReferenceIdeal.RefValue.output_eq, agg_eq, srcOf_eq, dstOf_eq]

end Cert.Proof.Bridge

end
-- ==== Proof.lean ====
/-
  Three graph-convolution layers, the dense part of each fused into one launch, against the plain jnp reference.

  Each layer is  out = f ( agg · W_relᵀ + x · W_rootᵀ + b ),  agg the sum of the source rows of x over the edges into each
  destination row, f the maximum with zero for the two hidden layers and the identity for the output layer.  Both programs
  form agg by the same host gather and scatter-add.  The kernel program then runs one launch per layer over 20 blocks of
  5000 nodes: two products into zero accumulators over the transposed weights, their sum, the bias row laid along the rows,
  the activation.  The reference forms the same entries by two host contractions and two broadcasts.  Over the extended reals
  a product into a zero accumulator and a host contraction are the same finite sum, so entry by entry the two results are the
  same function of the arguments; no finiteness of the inputs is used.

  The frames of the two kernel programs are the generated ones; the reference's frame is its generated run with the result
  dropped; the idealization rewrote nothing, so the preserved-meaning claim is trivial.
-/
import proofs.«131033_j14894946583442_1_alg».proof.Defs
import proofs.«131033_j14894946583442_1_alg».proof.Proof.Gen.Kernel
import proofs.«131033_j14894946583442_1_alg».proof.Proof.Gen.Kernel.Skeleton
import proofs.«131033_j14894946583442_1_alg».proof.Proof.Gen.Kernel.Launch
import proofs.«131033_j14894946583442_1_alg».proof.Proof.Gen.Kernel.Points
import proofs.«131033_j14894946583442_1_alg».proof.Proof.Gen.Kernel.Frame
import proofs.«131033_j14894946583442_1_alg».proof.Proof.Gen.KernelIdeal
import proofs.«131033_j14894946583442_1_alg».proof.Proof.Gen.KernelIdeal.Skeleton
import proofs.«131033_j14894946583442_1_alg».proof.Proof.Gen.KernelIdeal.Launch
import proofs.«131033_j14894946583442_1_alg».proof.Proof.Gen.KernelIdeal.Points
import proofs.«131033_j14894946583442_1_alg».proof.Proof.Gen.KernelIdeal.Frame
import proofs.«131033_j14894946583442_1_alg».proof.Proof.Gen.ReferenceIdeal
import proofs.«131033_j14894946583442_1_alg».proof.Proof.Gen.ReferenceIdeal.Run
import proofs.«131033_j14894946583442_1_alg».proof.Proof.Gen.ReferenceIdeal.Read
import proofs.«131033_j14894946583442_1_alg».proof.Proof.Gen.Pre_finite_inputs
import proofs.«131033_j14894946583442_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the third layer of the second of the first over the arguments' launch contents. -/
theorem algebraic : Cert.algebraic_KernelIdeal_ReferenceIdeal := by
  intro m ρ m' ρ' _ hagree
  refine ⟨fun c => Cert.KernelIdeal.Layers.h3 m c, Cert.KernelIdeal.Layers.run m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.RefValue.res_eq m' c).trans (Cert.Proof.Bridge.result_eq m m' c (hagree c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
